-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : IVec S16384 32) (main_arg2 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg2
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S16384 : Shape := ⟨1, ![16384]⟩
abbrev S4096x512 : Shape := ⟨2, ![4096, 512]⟩
abbrev S_ : Shape := ⟨0, ![]⟩
abbrev S16384x1 : Shape := ⟨2, ![16384, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x512 : Shape := ⟨2, ![2048, 512]⟩
abbrev S1024x512 : Shape := ⟨2, ![1024, 512]⟩
abbrev S2048x1 : Shape := ⟨2, ![2048, 1]⟩
abbrev S1x1024 : Shape := ⟨2, ![1, 1024]⟩
abbrev S2048x1024 : Shape := ⟨2, ![2048, 1024]⟩

abbrev nBuf : Space → Nat
  | .hbm => 28
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S16384x1, .i32⟩
  | .hbm, ⟨6, _⟩ => ⟨S4096x512, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S4096, .f32⟩
  | .hbm, ⟨11, _⟩ => ⟨S16384x1, .i32⟩
  | .hbm, ⟨12, _⟩ => ⟨S4096, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S1x4096, .f32⟩
  | .hbm, ⟨25, _⟩ => ⟨S4096x512, .bf16⟩
  | .hbm, ⟨26, _⟩ => ⟨S4096x512, .bf16⟩
  | .hbm, ⟨27, _⟩ => ⟨S4096x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S4096x512 : S_.BroadcastsInDim S4096x512 (![] : Fin 0 → Fin S4096x512.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  reducesTo_S4096x512_S4096_d1 : S4096x512.ReducesTo [1] S4096
  h_S_ : 0 < S_.numel
  shapeCasts_S4096x1_S1x4096 : S4096x1.ShapeCasts S1x4096
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  scatter_S4096x512_S16384x1_S16384x512_1_0_0_1_wf : ScatterDims.WF S4096x512 S16384x1 S16384x512 [1] [0] [0] 1
  scatter_S4096_S16384x1_S16384_n_0_0_1_wf : ScatterDims.WF S4096 S16384x1 S16384 [] [0] [0] 1
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .bf16 = 32 ∨ (Rect.block (s := S4096x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def scatter_S4096x512_S16384x1_S16384x512_1_0_0_1 : ScatterDims S4096x512 S16384x1 S16384x512 where
  updateWindowDims := [1]
  insertedWindowDims := [0]
  scatterDimsToOperandDims := [0]
  indexVectorDim := 1
  wf := scatter_S4096x512_S16384x1_S16384x512_1_0_0_1_wf
def scatter_S4096_S16384x1_S16384_n_0_0_1 : ScatterDims S4096 S16384x1 S16384 where
  updateWindowDims := []
  insertedWindowDims := [0]
  scatterDimsToOperandDims := [0]
  indexVectorDim := 1
  wf := scatter_S4096_S16384x1_S16384_n_0_0_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v17) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S4096x512 : Shape := ⟨2, ![4096, 512]⟩
abbrev S_ : Shape := ⟨0, ![]⟩
abbrev S16384x1 : Shape := ⟨2, ![16384, 1]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S4096x4096 : Shape := ⟨2, ![4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S16384x1, .i32⟩
  | .hbm, ⟨6, _⟩ => ⟨S4096x512, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S4096, .f32⟩
  | .hbm, ⟨11, _⟩ => ⟨S16384x1, .i32⟩
  | .hbm, ⟨12, _⟩ => ⟨S4096, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S1x4096, .f32⟩
  | .hbm, ⟨24, _⟩ => ⟨S512x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  reducesTo_S4096x512_S4096_d1 : S4096x512.ReducesTo [1] S4096
  h_S_ : 0 < S_.numel
  bcast_S4096_S1x4096_1 : S4096.BroadcastsInDim S1x4096 (![1] : Fin 1 → Fin S1x4096.rank)
  transposes_S4096x512_S512x4096_1_0 : S4096x512.Transposes [1, 0] S512x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  scatter_S4096x512_S16384x1_S16384x512_1_0_0_1_wf : ScatterDims.WF S4096x512 S16384x1 S16384x512 [1] [0] [0] 1
  scatter_S4096_S16384x1_S16384_n_0_0_1_wf : ScatterDims.WF S4096 S16384x1 S16384 [] [0] [0] 1
  dot_S4096x512_S512x4096_S4096x4096_1_0_0_1_n_n_wf : DotDims.WF S4096x512 S512x4096 S4096x4096 [1] [0] [0] [1] [] []

variable [Facts₀]

def scatter_S4096x512_S16384x1_S16384x512_1_0_0_1 : ScatterDims S4096x512 S16384x1 S16384x512 where
  updateWindowDims := [1]
  insertedWindowDims := [0]
  scatterDimsToOperandDims := [0]
  indexVectorDim := 1
  wf := scatter_S4096x512_S16384x1_S16384x512_1_0_0_1_wf
def scatter_S4096_S16384x1_S16384_n_0_0_1 : ScatterDims S4096 S16384x1 S16384 where
  updateWindowDims := []
  insertedWindowDims := [0]
  scatterDimsToOperandDims := [0]
  indexVectorDim := 1
  wf := scatter_S4096_S16384x1_S16384_n_0_0_1_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.DistSpec.lean ====
/-
  Negated pairwise Euclidean distances between the rows of two arrays of 4096 rows and 512 columns, on the
  extended reals: for a query row r and a prototype row s,

      −√ max(‖q_r‖² + ‖p_s‖² − 2·⟨q_r, p_s⟩, 0),

  the squared norms each the sum of the row's squares started from the zero the sum is seeded with, the inner
  product the sum over the 512 columns of the entries' products, the negation written as the difference from
  zero. The literals stay the words the programs print (zero and two): the same word stands on both sides of
  every equation below it and is never evaluated.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The squared norm of row `r`: the seed zero plus the sum of the squares of the row's 512 entries. -/
def sqNorm (a : Fin 4096 → Fin 512 → EReal) (r : Fin 4096) : EReal :=
  Ideal.ofBits .f32 0x00000000#32 + ∑ k : Fin 512, a r k * a r k

/-- The inner product of row `r` of `q` with row `s` of `p`. -/
def rowDot (q p : Fin 4096 → Fin 512 → EReal) (r s : Fin 4096) : EReal :=
  ∑ k : Fin 512, q r k * p s k

/-- The negated distance between row `r` of `q` and row `s` of `p`: the squared distance by the expanded
    norms, clamped below at zero, its square root subtracted from zero. -/
def negDist (q p : Fin 4096 → Fin 512 → EReal) (r s : Fin 4096) : EReal :=
  Ideal.ofBits .f32 0x00000000#32
    - Ideal.sqrt (max (sqNorm q r + sqNorm p s - Ideal.ofBits .f32 0x40000000#32 * rowDot q p r s)
        (Ideal.ofBits .f32 0x00000000#32))

/-- The whole 4096 × 4096 array of negated distances, as a function of the two arrays read by row and column. -/
def negDistArr (xq prot : (⟨2, ![4096, 512]⟩ : Shape).Idx → EReal) : (⟨2, ![4096, 4096]⟩ : Shape).Idx → EReal :=
  fun i => negDist (fun r k => xq (ix2 r k)) (fun r k => prot (ix2 r k)) (i 0) (i 1)

/-- Subtracting from the zero word is negation, at every extended real (the infinities included). -/
theorem zero_word_sub (x : EReal) : Ideal.ofBits .f32 0x00000000#32 - x = -x := by
  rw [Ideal.ofBits_zero_f32, zero_sub]

end Cert.Dist

end
-- ==== Proof.RefDist.lean ====
/-
  The reference's result array is the array of negated distances between the query rows and the prototype
  rows. Read one operation at a time, its entry at (r, s) is the negation of the square root of
  max(‖q_r‖² + ‖p_s‖² − 2·⟨q_r, p_s⟩, 0): the query norms come from a row sum kept as a column, the prototype
  norms from a row sum laid out as a row, the inner product from the product of the queries with the
  transposed prototypes, which at (r, s) contracts row r of the queries with row s of the prototypes. The
  prototype array itself (class sums divided by class counts) is carried as one value and never opened. The
  negation is the difference from zero on the extended reals.
-/
import proofs.«128618_j8675833938767_1_alg».proof.Proof.Gen.ReferenceIdeal.Read
import proofs.«128618_j8675833938767_1_alg».proof.Proof.DistSpec

noncomputable section

open Idealize.ShloMosaic Idealize.ShloMosaic.ValueIdx

namespace Cert.ReferenceIdeal.RefValue

open Cert.ReferenceIdeal Cert.ReferenceIdeal.Gen Cert.ReferenceIdeal.Read Cert.Dist

/-- The query squared norms, kept as a column: the entry in row r is the squared norm of row r of the queries. -/
theorem query_norm_apply (x2 : (⟨S4096x512, .f32⟩ : BufTy).Contents (Elt Ideal)) (r : Fin 4096) :
    val_main_v12 (F := Ideal) x2 (ix2 r 0) = sqNorm (fun r k => x2 (ix2 r k)) r := by
  have e : ∀ k : Fin 512, idx_main_v11 (idx_main_v12 (ix2 r (0 : Fin 1))) k = ix2 r k := fun k =>
    funext fun a => Fin.ext (by match a with | ⟨0, _⟩ => rfl | ⟨1, _⟩ => rfl)
  rw [val_main_v12_apply, val_main_v11_apply, val_main_cst_2_apply]
  simp only [e, val_main_v10_apply, Ideal.mulf_def, Ideal.ofBits_def]
  rfl

/-- The prototype squared norms, as a vector: the entry at s is the squared norm of row s of the prototypes. -/
theorem proto_norm_apply (x0 : (⟨S16384x512, .f32⟩ : BufTy).Contents (Elt Ideal)) (x1 : (⟨S16384, .i32⟩ : BufTy).Contents (Elt Ideal)) (s : Fin 4096) :
    val_main_v14 (F := Ideal) x0 x1 (ix1 s) = sqNorm (fun r k => val_main_v9 (F := Ideal) x0 x1 (ix2 r k)) s := by
  have e : ∀ k : Fin 512, idx_main_v14 (ix1 s) k = ix2 s k := fun k =>
    funext fun a => Fin.ext (by match a with | ⟨0, _⟩ => rfl | ⟨1, _⟩ => rfl)
  rw [val_main_v14_apply, val_main_cst_3_apply]
  simp only [e, val_main_v13_apply, Ideal.mulf_def, Ideal.ofBits_def]
  rfl

/-- The reference's result is the array of negated distances of the queries to the prototypes. -/
theorem result_eq (x0 : (⟨S16384x512, .f32⟩ : BufTy).Contents (Elt Ideal)) (x1 : (⟨S16384, .i32⟩ : BufTy).Contents (Elt Ideal)) (x2 : (⟨S4096x512, .f32⟩ : BufTy).Contents (Elt Ideal)) :
    val_main_v27 (F := Ideal) x0 x1 x2 = negDistArr x2 (val_main_v9 (F := Ideal) x0 x1) := by
  funext i
  obtain ⟨r, s, rfl⟩ : ∃ (r : Fin 4096) (s : Fin 4096), i = ix2 r s := ⟨i 0, i 1, eq_ix2 i⟩
  have e18 : idx_main_v18 (ix2 r s) = ix2 r (0 : Fin 1) :=
    funext fun a => Fin.ext (by match a with | ⟨0, _⟩ => rfl | ⟨1, _⟩ => rfl)
  have e19 : idx_main_v15 (idx_main_v19 (ix2 r s)) = ix1 s :=
    funext fun a => Fin.ext (by match a with | ⟨0, _⟩ => rfl)
  have el : ∀ k : Fin 512, lidx_main_v17 (ix2 r s) k = ix2 r k := fun k =>
    funext fun a => Fin.ext (by match a with | ⟨0, _⟩ => rfl | ⟨1, _⟩ => rfl)
  have er : ∀ k : Fin 512, idx_main_v16 (ridx_main_v17 (ix2 r s) k) = ix2 s k := fun k =>
    funext fun a => Fin.ext (by match a with | ⟨0, _⟩ => rfl | ⟨1, _⟩ => rfl)
  show _ = negDist (fun r k => x2 (ix2 r k)) (fun r k => val_main_v9 (F := Ideal) x0 x1 (ix2 r k)) r s
  unfold negDist rowDot
  rw [zero_word_sub]
  rw [val_main_v27_apply, val_main_v26_apply, val_main_v25_apply, val_main_v23_apply, val_main_v20_apply, val_main_v22_apply,
    val_main_v24_apply, val_main_cst_5_apply, val_main_v21_apply, val_main_cst_4_apply,
    val_main_v18_apply, e18, query_norm_apply, val_main_v19_apply, val_main_v15_apply, e19, proto_norm_apply, val_main_v17_apply]
  simp only [el, er, val_main_v16_apply, Ideal.hostNegf_def, Ideal.negf_def, Ideal.hostUnary_sqrt_def, Ideal.maximumf_def,
    Ideal.subf_def, Ideal.addf_def, Ideal.mulf_def, Ideal.ofBits_def]

end Cert.ReferenceIdeal.RefValue

end
-- ==== Proof.KernelHost.lean ====
/-
  What the kernel's region finds in the four arrays it reads, after the host operations in front of it. The
  host operations are, one for one, those the reference applies to the same arguments, so each array is named
  by the reference's own stage: the queries unchanged (the narrowing to the shorter float format is the identity
  on the extended reals), the prototypes (class sums over class counts, carried as one value and never opened),
  the query squared norms as a column, and the prototype squared norms: a column re-laid as a row, whose
  entry in column s is the vector's entry at s.
-/
import proofs.«128618_j8675833938767_1_alg».proof.Proof.Gen.KernelIdeal.Frame
import proofs.«128618_j8675833938767_1_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen

variable (m : (ℓ : Loc nD τ sig) → Buf (Elt Ideal) ℓ)

/-- The query array, as the region finds it: the third argument. -/
theorem queries_found (c : Dev nD) :
    @Eq (S4096x512.Idx → EReal) (V m c main_v17) (m ((c : Thread nD τ).loc main_arg2)) := by
  dsimp only [Gen.V, Gen.hostOps0]
  after_results
  rfl

/-- The prototype array, as the region finds it: the reference's prototypes of the first two arguments. -/
theorem protos_found (c : Dev nD) :
    @Eq (S4096x512.Idx → EReal) (V m c main_v18)
      (Cert.ReferenceIdeal.Read.val_main_v9 (F := Ideal) (m ((c : Thread nD τ).loc main_arg0)) (m ((c : Thread nD τ).loc main_arg1))) := by
  dsimp only [Gen.V, Gen.hostOps0]
  after_results
  rfl

/-- The column of query squared norms, as the region finds it: the reference's. -/
theorem query_norms_found (c : Dev nD) :
    @Eq (S4096x1.Idx → EReal) (V m c main_v12)
      (Cert.ReferenceIdeal.Read.val_main_v12 (F := Ideal) (m ((c : Thread nD τ).loc main_arg2))) := by
  dsimp only [Gen.V, Gen.hostOps0]
  after_results
  rfl

/-- A vector of 4096 entries set as a column and then re-laid as a row. -/
def asRow (y : S4096.Idx → EReal) : S1x4096.Idx → EReal :=
  shapeCast S1x4096 (broadcastInDim S4096x1 ![0] bcast_S4096_S4096x1_0 y) shapeCasts_S4096x1_S1x4096

/-- The row of prototype squared norms, as the region finds it: the reference's vector of them, set as a column
    and re-laid as a row. -/
theorem proto_norms_found (c : Dev nD) :
    @Eq (S1x4096.Idx → EReal) (V m c main_v16)
      (asRow (Cert.ReferenceIdeal.Read.val_main_v14 (F := Ideal) (m ((c : Thread nD τ).loc main_arg0)) (m ((c : Thread nD τ).loc main_arg1)))) := by
  dsimp only [Gen.V, Gen.hostOps0]
  after_results
  rfl

/-- Such a row reads, in column s, the vector's entry at s: the column's row-major position s is the row's
    row-major position s, the row having one row only. -/
theorem asRow_apply (y : S4096.Idx → EReal) (i : S1x4096.Idx) (s : Fin 4096) (h : (i 1).val = s.val) :
    asRow y i = y (ix1 s) := by
  unfold asRow
  refine (shapeCast_apply _ shapeCasts_S4096x1_S1x4096 i (ix2 s 0) ?_).trans ?_
  · rw [Shape.rowMajor_val_two, Shape.rowMajor_val_two]
    have h0 : (i 0).val < 1 := (i 0).isLt
    show s.val * 1 + 0 = (i 0).val * 4096 + (i 1).val
    omega
  · exact broadcastInDim_apply _ bcast_S4096_S4096x1_0 y (ix2 s 0) (ix1 s) (fun a => match a with
      | ⟨0, _⟩ => by show s.val = if (4096 : Nat) = 1 then 0 else s.val; rw [if_neg (by decide)])

end Cert.KernelIdeal.Host

end
-- ==== Proof.KernelPayload.lean ====
/-
  The kernel body's stored value at one position (p, q) of its 2048 × 1024 block, as a function of the four
  loaded blocks: the column of query squared norms read at row p, the row of prototype squared norms read at
  column q, and the product of the 2048 × 512 and 1024 × 512 blocks contracted over their 512 columns, which at
  (p, q) is the inner product of row p of the one with row q of the other. The remaining operations are
  pointwise: the sum of the two norms less twice the product, the maximum with zero, the square root, and its
  difference from zero.
-/
import proofs.«128618_j8675833938767_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Body

open Cert.KernelIdeal Cert.KernelIdeal.Gen

/-- A column [2048, 1] spread over 1024 columns reads, at (p, q), its entry in row p. -/
theorem spread_column (x : FVec Ideal S2048x1 .f32) (p : Fin 2048) (q : Fin 1024) :
    broadcastTo S2048x1024 x broadcasts_S2048x1_S2048x1024 (ix2 p q) = x (ix2 p 0) :=
  broadcastTo_apply x broadcasts_S2048x1_S2048x1024 (ix2 p q) (ix2 p 0) (fun a => by
    match a with
    | ⟨0, _⟩ => show p.val = if (2048 : Nat) = 1 then 0 else p.val; rw [if_neg (by decide)]
    | ⟨1, _⟩ => show 0 = if (1 : Nat) = 1 then 0 else q.val; rw [if_pos rfl])

/-- A row [1, 1024] spread over 2048 rows reads, at (p, q), its entry in column q. -/
theorem spread_row (x : FVec Ideal S1x1024 .f32) (p : Fin 2048) (q : Fin 1024) :
    broadcastTo S2048x1024 x broadcasts_S1x1024_S2048x1024 (ix2 p q) = x (ix2 0 q) :=
  broadcastTo_apply x broadcasts_S1x1024_S2048x1024 (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-! The operand positions of the contraction: the left operand is read at (row of the result, k), the right
    operand at (column of the result, k). -/

theorem lhs_row (i : S2048x1024.Idx) (k : dot_S2048x512_S1024x512_S2048x1024_1_1_0_0_n_n.contr.Idx) :
    (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_col (i : S2048x1024.Idx) (k : dot_S2048x512_S1024x512_S2048x1024_1_1_0_0_n_n.contr.Idx) :
    (dot_S2048x512_S1024x512_S2048x1024_1_1_0_0_n_n.lhsIdx i k 1).val = (k ⟨0, by decide⟩).val :=
  dot_S2048x512_S1024x512_S2048x1024_1_1_0_0_n_n.lhsIdx_val_of_single rfl i k
theorem rhs_row (i : S2048x1024.Idx) (k : dot_S2048x512_S1024x512_S2048x1024_1_1_0_0_n_n.contr.Idx) :
    (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_col (i : S2048x1024.Idx) (k : dot_S2048x512_S1024x512_S2048x1024_1_1_0_0_n_n.contr.Idx) :
    (dot_S2048x512_S1024x512_S2048x1024_1_1_0_0_n_n.rhsIdx i k 1).val = (k ⟨0, by decide⟩).val :=
  dot_S2048x512_S1024x512_S2048x1024_1_1_0_0_n_n.rhsIdx_val_of_single rfl i k

/-- The product of the two blocks into a zero accumulator, at (p, q): the inner product of row p of the left
    block with row q of the right block. -/
theorem product_apply (x0 : FVec Ideal S2048x512 .bf16) (x1 : FVec Ideal S1024x512 .bf16) (p : Fin 2048) (q : Fin 1024) :
    FloatOps.matmul dot_S2048x512_S1024x512_S2048x1024_1_1_0_0_n_n none x0 x1 (constant S2048x1024 .f32 0x00000000#32) (ix2 p q)
      = ∑ k : Fin 512, x0 (ix2 p k) * x1 (ix2 q k) := by
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun a => Fin.ext (by
    match a with
    | ⟨0, _⟩ => exact lhs_row _ _
    | ⟨1, _⟩ => exact (lhs_col _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun a => Fin.ext (by
    match a with
    | ⟨0, _⟩ => exact rhs_row _ _
    | ⟨1, _⟩ => exact (rhs_col _ _).trans hk)
  rw [el, er]

/-- The body's stored value at (p, q). -/
theorem stored_apply (x0 : Vec Ideal S2048x512 .bf16) (x1 : Vec Ideal S1024x512 .bf16) (x2 : Vec Ideal S2048x1 .f32) (x3 : Vec Ideal S1x1024 .f32)
    (p : Fin 2048) (q : Fin 1024) :
    k0_pay1 (F := Ideal) x0 x1 x2 x3 (ix2 p q)
      = Ideal.ofBits .f32 0x00000000#32
        - Ideal.sqrt (max (x2 (ix2 p 0) + x3 (ix2 0 q) - Ideal.ofBits .f32 0x40000000#32 * ∑ k : Fin 512, x0 (ix2 p k) * x1 (ix2 q k))
            (Ideal.ofBits .f32 0x00000000#32)) := by
  unfold k0_pay1
  simp only [subf_apply, maximumf_apply, addf_apply, mulf_apply, broadcast_apply, sqrt, shapeCast_self, spread_column,
    spread_row, matmul, product_apply, Ideal.ofBits_def, Ideal.sqrt_def]

end Cert.KernelIdeal.Body

end
-- ==== Proof.KernelValue.lean ====
/-
  The kernel's result array, after its run, is the array of negated distances of the queries to the prototypes.

  The grid has 2 × 4 points; the point with block index (a, b) computes the 2048 × 1024 block of the result whose
  rows are a·2048 … a·2048 + 2047 and whose columns are b·1024 … b·1024 + 1023. There it reads rows a·2048 + p of
  the queries and of the column of query norms, and rows b·1024 + q of the prototypes and columns b·1024 + q of
  the row of prototype norms, so the value it stores at (p, q) of the block is the negated distance at
  (a·2048 + p, b·1024 + q). The eight blocks tile the 4096 × 4096 array: entry (r, s) lies in the block with
  index (r / 2048, s / 1024).
-/
import proofs.«128618_j8675833938767_1_alg».proof.Proof.Gen.KernelIdeal.Value
import proofs.«128618_j8675833938767_1_alg».proof.Proof.DistSpec
import proofs.«128618_j8675833938767_1_alg».proof.Proof.KernelHost
import proofs.«128618_j8675833938767_1_alg».proof.Proof.KernelPayload
import proofs.«128618_j8675833938767_1_alg».proof.Proof.RefDist
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Dist

variable (m : (ℓ : Loc nD τ sig) → Buf (Elt Ideal) ℓ) (ρ : Dev nD → PrngReg)

theorem origin : (![0, 0] : Fin 2 → Nat) = fun _ => 0 := funext fun a => by fin_cases a <;> rfl

/-- The block indices of the five windows at a grid point, decided over the eight points: the queries and their
    norms move with the result's block row, the prototypes and their norms with its block column, and the
    result's block index stays inside 2 × 4. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 1 ∧ win0_4.index t (1 : Fin 2) ≤ 3 :=
  (by decide +kernel : ∀ t : Fin grid0.N, _)

/-- Every block index of the 2 × 4 tiling is some grid point's. -/
theorem block_index_onto : ∀ (a : Fin 2) (b : Fin 4), ∃ t : Fin cfg0.N, win0_4.index t = ![a.val, b.val] :=
  (by decide +kernel : ∀ (a : Fin 2) (b : Fin 4), ∃ t : Fin grid0.N, win0_4.index t = ![a.val, b.val])

/-! ## The four input blocks at a grid point, read at a position -/

/-- Row p of the query block is row R of the queries, R the block's first row plus p. -/
theorem queries_block (c : Dev nD) (t : Fin cfg0.N) (p : Fin 2048) (k : Fin 512) (R : Fin 4096)
    (hR : R.val = win0_4.index t (0 : Fin 2) * 2048 + 1 * p.val) :
    (iblk m c 0 t : Vec Ideal S2048x512 .bf16) (ix2 p k) = (m ((c : Thread nD τ).loc main_arg2) : S4096x512.Idx → EReal) (ix2 R k) := by
  obtain ⟨e0, e1, -⟩ := block_indices t
  unfold iblk
  rw [View.read_apply]
  show V m c main_v17 _ = _
  rw [Host.queries_found]
  refine congrArg (m ((c : Thread nD τ).loc main_arg2) : S4096x512.Idx → EReal) (funext fun a => Fin.ext ?_)
  match a with
  | ⟨0, _⟩ => show win0_0.index t (0 : Fin 2) * 2048 + 1 * p.val = R.val; omega
  | ⟨1, _⟩ => show win0_0.index t (1 : Fin 2) * 512 + 1 * k.val = k.val; omega

/-- Row q of the prototype block is row C of the prototypes, C the result block's first column plus q. -/
theorem protos_block (c : Dev nD) (t : Fin cfg0.N) (q : Fin 1024) (k : Fin 512) (C : Fin 4096)
    (hC : C.val = win0_4.index t (1 : Fin 2) * 1024 + 1 * q.val) :
    (iblk m c 1 t : Vec Ideal S1024x512 .bf16) (ix2 q k) = (Cert.ReferenceIdeal.Read.val_main_v9 (F := Ideal) (m ((c : Thread nD τ).loc main_arg0)) (m ((c : Thread nD τ).loc main_arg1))) (ix2 C k) := by
  obtain ⟨-, -, e0, e1, -⟩ := block_indices t
  unfold iblk
  rw [View.read_apply]
  show V m c main_v18 _ = _
  rw [Host.protos_found]
  refine congrArg (Cert.ReferenceIdeal.Read.val_main_v9 (F := Ideal) (m ((c : Thread nD τ).loc main_arg0)) (m ((c : Thread nD τ).loc main_arg1))) (funext fun a => Fin.ext ?_)
  match a with
  | ⟨0, _⟩ => show win0_1.index t (0 : Fin 2) * 1024 + 1 * q.val = C.val; omega
  | ⟨1, _⟩ => show win0_1.index t (1 : Fin 2) * 512 + 1 * k.val = k.val; omega

/-- Row p of the block of query norms is the squared norm of row R of the queries. -/
theorem query_norms_block (c : Dev nD) (t : Fin cfg0.N) (p : Fin 2048) (R : Fin 4096)
    (hR : R.val = win0_4.index t (0 : Fin 2) * 2048 + 1 * p.val) :
    (iblk m c 2 t : Vec Ideal S2048x1 .f32) (ix2 p 0) = sqNorm (fun r k => (m ((c : Thread nD τ).loc main_arg2) : S4096x512.Idx → EReal) (ix2 r k)) R := by
  obtain ⟨-, -, -, -, e0, e1, -⟩ := block_indices t
  unfold iblk
  rw [View.read_apply]
  show V m c main_v12 _ = _
  rw [Host.query_norms_found]
  refine Eq.trans (congrArg (Cert.ReferenceIdeal.Read.val_main_v12 (F := Ideal) (m ((c : Thread nD τ).loc main_arg2))) (funext fun a => Fin.ext ?_))
    (Cert.ReferenceIdeal.RefValue.query_norm_apply (m ((c : Thread nD τ).loc main_arg2)) R)
  match a with
  | ⟨0, _⟩ => show win0_2.index t (0 : Fin 2) * 2048 + 1 * p.val = R.val; omega
  | ⟨1, _⟩ => show win0_2.index t (1 : Fin 2) * 1 + 1 * 0 = 0; omega

/-- Column q of the block of prototype norms is the squared norm of row C of the prototypes. -/
theorem proto_norms_block (c : Dev nD) (t : Fin cfg0.N) (q : Fin 1024) (C : Fin 4096)
    (hC : C.val = win0_4.index t (1 : Fin 2) * 1024 + 1 * q.val) :
    (iblk m c 3 t : Vec Ideal S1x1024 .f32) (ix2 0 q) = sqNorm (fun r k => (Cert.ReferenceIdeal.Read.val_main_v9 (F := Ideal) (m ((c : Thread nD τ).loc main_arg0)) (m ((c : Thread nD τ).loc main_arg1))) (ix2 r k)) C := by
  obtain ⟨-, -, -, -, -, -, -, e1, -⟩ := block_indices t
  unfold iblk
  rw [View.read_apply]
  show V m c main_v16 _ = _
  rw [Host.proto_norms_found]
  refine (Host.asRow_apply _ _ C ?_).trans
    (Cert.ReferenceIdeal.RefValue.proto_norm_apply (m ((c : Thread nD τ).loc main_arg0)) (m ((c : Thread nD τ).loc main_arg1)) C)
  show win0_3.index t (1 : Fin 2) * 1024 + 1 * q.val = C.val
  omega

/-! ## What a grid point stores, and the array the blocks make -/

/-- The value the body stores at (p, q) of its block is the negated distance between query row R and prototype
    row C, R and C the block's first row and column plus p and q. -/
theorem block_value (c : Dev nD) (t : Fin cfg0.N) (p : Fin 2048) (q : Fin 1024) (R C : Fin 4096)
    (hR : R.val = win0_4.index t (0 : Fin 2) * 2048 + 1 * p.val) (hC : C.val = win0_4.index t (1 : Fin 2) * 1024 + 1 * q.val) :
    k0_pay1 (F := Ideal) (iblk m c 0 t) (iblk m c 1 t) (iblk m c 2 t) (iblk m c 3 t) (ix2 p q)
      = negDist (fun r k => (m ((c : Thread nD τ).loc main_arg2) : S4096x512.Idx → EReal) (ix2 r k)) (fun r k => (Cert.ReferenceIdeal.Read.val_main_v9 (F := Ideal) (m ((c : Thread nD τ).loc main_arg0)) (m ((c : Thread nD τ).loc main_arg1))) (ix2 r k)) R C := by
  refine (Body.stored_apply (iblk m c 0 t) (iblk m c 1 t) (iblk m c 2 t) (iblk m c 3 t) p q).trans ?_
  unfold negDist rowDot
  rw [query_norms_block m c t p R hR, proto_norms_block m c t q C hC]
  simp only [fun k => queries_block m c t p k R hR, fun k => protos_block m c t q k C hC]

/-- What point t writes back is block t of the array of negated distances. -/
theorem flushed_eq (c : Dev nD) (t : Fin cfg0.N) :
    (dats m 0 c).flushed 4 t = ((cfg0.win 4).blk t).view.read (Elt Ideal) (negDistArr (m ((c : Thread nD τ).loc main_arg2) : S4096x512.Idx → EReal) (Cert.ReferenceIdeal.Read.val_main_v9 (F := Ideal) (m ((c : Thread nD τ).loc main_arg0)) (m ((c : Thread nD τ).loc main_arg1)))) := by
  rw [Value.flushed4]
  unfold out0_4
  rw [View.canon_unit_zero origin]
  simp only [View.ld_unit_zero (S := S2048x512) origin, View.ld_unit_zero (S := S1024x512) origin,
    View.ld_unit_zero (S := S2048x1) origin, View.ld_unit_zero (S := S1x1024) origin]
  funext j
  obtain ⟨p, q, rfl⟩ : ∃ (p : Fin 2048) (q : Fin 1024), j = ix2 p q := ⟨j 0, j 1, eq_ix2 j⟩
  show k0_pay1 (F := Ideal) (iblk m c 0 t) (iblk m c 1 t) (iblk m c 2 t) (iblk m c 3 t) (ix2 p q)
    = negDist (fun r k => (m ((c : Thread nD τ).loc main_arg2) : S4096x512.Idx → EReal) (ix2 r k)) (fun r k => (Cert.ReferenceIdeal.Read.val_main_v9 (F := Ideal) (m ((c : Thread nD τ).loc main_arg0)) (m ((c : Thread nD τ).loc main_arg1))) (ix2 r k))
        (((cfg0.win 4).blk t).view.emb (ix2 p q) 0) (((cfg0.win 4).blk t).view.emb (ix2 p q) 1)
  exact block_value m c t p q _ _ rfl rfl

/-- An entry of the result array is in point t's block iff each coordinate is in the block's range. -/
theorem mem_block (t : Fin cfg0.N) (i : S4096x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v19).slice (win0_4.rect t)).set ↔ _
  rw [View.set_slice_whole, Rect.mem_set_unit]
  exact Iff.rfl

/-- The eight blocks cover the array: entry (r, s) is in the block with index (r / 2048, s / 1024). -/
theorem blocks_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := block_index_onto ⟨(i 0).val / 2048, by omega⟩ ⟨(i 1).val / 1024, by omega⟩
  have q0 : win0_4.index t (0 : Fin 2) = (i 0).val / 2048 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

/-- The result array after the run: the negated distances of the queries to the prototypes. -/
theorem final (c : Dev nD) : (dats m 0 c).arrAt 4 cfg0.N = negDistArr (m ((c : Thread nD τ).loc main_arg2) : S4096x512.Idx → EReal) (Cert.ReferenceIdeal.Read.val_main_v9 (F := Ideal) (m ((c : Thread nD τ).loc main_arg0)) (m ((c : Thread nD τ).loc main_arg1))) :=
  (dats m 0 c).arrAt_eq_of_cover 4 (negDistArr (m ((c : Thread nD τ).loc main_arg2) : S4096x512.Idx → EReal) (Cert.ReferenceIdeal.Read.val_main_v9 (F := Ideal) (m ((c : Thread nD τ).loc main_arg0)) (m ((c : Thread nD τ).loc main_arg1)))) (fun t _ => flushed_eq m c t) blocks_cover

/-- The kernel's run, read: the result array at the negated distances, the arguments unchanged. -/
theorem run : θ_run defs (onTc (τ := τ) (main (F := Ideal))) ⟨m, fun _ => 0, ρ⟩ fun r => ∀ c : Dev nD,
      r.2.mem ((c : Thread nD τ).loc main_v19) = negDistArr (m ((c : Thread nD τ).loc main_arg2) : S4096x512.Idx → EReal) (Cert.ReferenceIdeal.Read.val_main_v9 (F := Ideal) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.lean ====
/-
  Nearest-prototype distances: from support features and their class labels, and from query features, the
  program computes for every query r and every class s the negated Euclidean distance −‖q_r − p_s‖, where the
  prototype p_s is the sum of the support rows labelled s divided by their number, and the squared distance is
  expanded as ‖q_r‖² + ‖p_s‖² − 2·⟨q_r, p_s⟩ and clamped below at zero before the square root.

  The kernel and the reference compute the prototypes and both families of squared norms by the same host
  operations on the same arguments, so those arrays are one value on both sides and are never opened (in
  particular nothing is asked of the labels, and a class with no support row gives the same prototype row on both
  sides). What differs is the last stage. The kernel tiles the 4096 × 4096 result into 2 × 4 blocks of 2048 × 1024
  and at each block multiplies a block of query rows with a block of prototype rows, contracting the 512
  features, into a zero accumulator, after narrowing both to a shorter float format; the reference multiplies
  the queries with the transposed prototypes in one product. On the extended reals the narrowing is the identity
  and both products, at (r, s), are the sum over the 512 features of q_r[k]·p_s[k]. The kernel lays the prototype
  norms out as a row by re-laying a column, the reference by placing the vector along the second axis; both read
  ‖p_s‖² in column s. The kernel negates by subtracting from zero, the reference by negation: equal at every
  extended real, the infinities included. No step uses that the inputs are finite.

  So the two results are the same function of the arguments, entry by entry (Cert.Dist.negDistArr): the
  kernel's by reading its stored value at a position of a block, the blocks at their places in the array, and the
  cover of the array by the eight blocks (KernelPayload, KernelHost, KernelValue); the reference's by reading its
  operations one at a time (RefDist). The three programs' runs terminate without fault and leave the arguments
  unchanged; the idealized kernel is the kernel's own text read at the extended reals, with no rewrite to account for.
-/
import proofs.«128618_j8675833938767_1_alg».proof.Defs
import proofs.«128618_j8675833938767_1_alg».proof.Proof.Gen.Kernel
import proofs.«128618_j8675833938767_1_alg».proof.Proof.Gen.Kernel.Skeleton
import proofs.«128618_j8675833938767_1_alg».proof.Proof.Gen.Kernel.Launch
import proofs.«128618_j8675833938767_1_alg».proof.Proof.Gen.Kernel.Points
import proofs.«128618_j8675833938767_1_alg».proof.Proof.Gen.Kernel.Frame
import proofs.«128618_j8675833938767_1_alg».proof.Proof.Gen.KernelIdeal
import proofs.«128618_j8675833938767_1_alg».proof.Proof.Gen.KernelIdeal.Skeleton
import proofs.«128618_j8675833938767_1_alg».proof.Proof.Gen.KernelIdeal.Launch
import proofs.«128618_j8675833938767_1_alg».proof.Proof.Gen.KernelIdeal.Points
import proofs.«128618_j8675833938767_1_alg».proof.Proof.Gen.KernelIdeal.Frame
import proofs.«128618_j8675833938767_1_alg».proof.Proof.Gen.ReferenceIdeal
import proofs.«128618_j8675833938767_1_alg».proof.Proof.Gen.KernelIdeal.Value
import proofs.«128618_j8675833938767_1_alg».proof.Proof.Gen.ReferenceIdeal.Run
import proofs.«128618_j8675833938767_1_alg».proof.Proof.Gen.ReferenceIdeal.Read
import proofs.«128618_j8675833938767_1_alg».proof.Proof.Gen.Pre_finite_inputs
import proofs.«128618_j8675833938767_1_alg».proof.Proof.DistSpec
import proofs.«128618_j8675833938767_1_alg».proof.Proof.RefDist
import proofs.«128618_j8675833938767_1_alg».proof.Proof.KernelValue
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals: nothing to preserve. -/
theorem preserves : Cert.preserves_Kernel_KernelIdeal := trivial

/-- From memories that agree on the arguments both programs end with the array of negated distances of the
    queries to the prototypes: the kernel's run read block by block, the reference's read operation by operation. -/
theorem algebraic : Cert.algebraic_KernelIdeal_ReferenceIdeal := by
  intro m ρ m' ρ' _ hagree
  refine ⟨fun c => Cert.Dist.negDistArr (m ((c.tc : Thread Cert.KernelIdeal.nD Cert.KernelIdeal.τ).loc Cert.KernelIdeal.main_arg2))
      (Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
